-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4000x80 : Shape := ⟨3, ![128, 4000, 80]⟩
abbrev S128x2 : Shape := ⟨2, ![128, 2]⟩
abbrev S_ : Shape := ⟨0, ![]⟩

class Facts : Prop where
  bcast_S_S128x4000x80 : S_.BroadcastsInDim S128x4000x80 (![] : Fin 0 → Fin S128x4000x80.rank)
  reducesTo_S128x4000x80_S_d0_1_2 : S128x4000x80.ReducesTo [0, 1, 2] S_
  h_S_ : 0 < S_.numel

variable [Facts]

def fn {F : FTy → Type} [FloatOps F] (main_arg0 : FVec F S128x4000x80 .f32) (main_arg1 : IVec S128x2 32) (main_arg2 : IVec S128x2 32) (main_arg3 : IVec S128x2 32) (main_arg4 : IVec S128x2 32) : IVec S_ 1 :=
  let main_v0 : FVec F S128x4000x80 .f32 := Host.absf main_arg0
  let main_cst : FVec F S_ .f32 := constant S_ .f32 0x7F800000#32
  let main_v1 : FVec F S128x4000x80 .f32 := broadcastInDim S128x4000x80 ![] bcast_S_S128x4000x80 main_cst
  let main_v2 : IVec S128x4000x80 1 := cmpf .olt main_v0 main_v1
  let main_c : IVec S_ 1 := constantI S_ 1 1#1
  let main_v3 : IVec S_ 1 := (fun x v => Host.reduce IntOp.andi x v reducesTo_S128x4000x80_S_d0_1_2 h_S_) main_v2 main_c
  main_v3
-- ==== Kernel.lean ====
abbrev S128x4000x80 : Shape := ⟨3, ![128, 4000, 80]⟩
abbrev S128x2 : Shape := ⟨2, ![128, 2]⟩
abbrev S16x1000x80 : Shape := ⟨3, ![16, 1000, 80]⟩
abbrev S16x2 : Shape := ⟨2, ![16, 2]⟩
abbrev S16x80 : Shape := ⟨2, ![16, 80]⟩
abbrev S16x1 : Shape := ⟨2, ![16, 1]⟩
abbrev S16x1000 : Shape := ⟨2, ![16, 1000]⟩
abbrev S16x1000x1 : Shape := ⟨3, ![16, 1000, 1]⟩
abbrev S16x1x80 : Shape := ⟨3, ![16, 1, 80]⟩

abbrev nBuf : Space → Nat
  | .hbm => 6
  | .vmem => 12
  | .smem => 0
  | _ => 0

abbrev bufTy : (tb : Table) → Fin (tcTables nBuf tb) → BufTy
  | .hbm, ⟨0, _⟩ => ⟨S128x4000x80, .f32⟩
  | .hbm, ⟨1, _⟩ => ⟨S128x2, .i32⟩
  | .hbm, ⟨2, _⟩ => ⟨S128x2, .i32⟩
  | .hbm, ⟨3, _⟩ => ⟨S128x2, .i32⟩
  | .hbm, ⟨4, _⟩ => ⟨S128x2, .i32⟩
  | .hbm, ⟨5, _⟩ => ⟨S128x4000x80, .f32⟩
  | .local _ .vmem, ⟨0, _⟩ => ⟨S16x1000x80, .f32⟩
  | .local _ .vmem, ⟨1, _⟩ => ⟨S16x1000x80, .f32⟩
  | .local _ .vmem, ⟨2, _⟩ => ⟨S16x2, .i32⟩
  | .local _ .vmem, ⟨3, _⟩ => ⟨S16x2, .i32⟩
  | .local _ .vmem, ⟨4, _⟩ => ⟨S16x2, .i32⟩
  | .local _ .vmem, ⟨5, _⟩ => ⟨S16x2, .i32⟩
  | .local _ .vmem, ⟨6, _⟩ => ⟨S16x2, .i32⟩
  | .local _ .vmem, ⟨7, _⟩ => ⟨S16x2, .i32⟩
  | .local _ .vmem, ⟨8, _⟩ => ⟨S16x2, .i32⟩
  | .local _ .vmem, ⟨9, _⟩ => ⟨S16x2, .i32⟩
  | .local _ .vmem, ⟨10, _⟩ => ⟨S16x1000x80, .f32⟩
  | .local _ .vmem, ⟨11, _⟩ => ⟨S16x1000x80, .f32⟩
  | _, _ => ⟨S128x4000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x1000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x1000x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  iota_S16x80_d1_w32 : S16x80.Iotas .tc 32 [1]
  inb_S16x2_S16x1_0_0 : ∀ a, (![0, 0] : Fin 2 → Nat) a + S16x1.size a ≤ S16x2.size a
  h_S16x1 : 0 < S16x1.numel
  broadcasts_S16x1_S16x80 : S16x1.Broadcasts S16x80
  inb_S16x2_S16x1_0_1 : ∀ a, (![0, 1] : Fin 2 → Nat) a + S16x1.size a ≤ S16x2.size a
  natLt_1_32 : 1 < 32
  iota_S16x1000_d1_w32 : S16x1000.Iotas .tc 32 [1]
  broadcasts_S16x1_S16x1000 : S16x1.Broadcasts S16x1000
  inb_S16x1000x80_S16x1000x80_0_0_0 : ∀ a, (![0, 0, 0] : Fin 3 → Nat) a + S16x1000x80.size a ≤ S16x1000x80.size a
  h_S16x1000x80 : 0 < S16x1000x80.numel
  shapeCasts_S16x1000_S16x1000x1 : S16x1000.ShapeCasts S16x1000x1
  broadcasts_S16x1000x1_S16x1000x80 : S16x1000x1.Broadcasts S16x1000x80
  shapeCasts_S16x80_S16x1x80 : S16x80.ShapeCasts S16x1x80
  broadcasts_S16x1x80_S16x1000x80 : S16x1x80.Broadcasts S16x1000x80
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1000x80.size a ≤ S128x4000x80.size a
  hwx0_0 : ∀ i : grid0.Coords, EltTy.bits .f32 = 32 ∨ (Rect.block (s := S128x4000x80) S16x1000x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x2.size a ≤ S128x2.size a
  hwx0_1 : ∀ i : grid0.Coords, EltTy.bits .i32 = 32 ∨ (Rect.block (s := S128x2) S16x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x2.size a ≤ S128x2.size a
  hwx0_2 : ∀ i : grid0.Coords, EltTy.bits .i32 = 32 ∨ (Rect.block (s := S128x2) S16x2.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x2.size a ≤ S128x2.size a
  hwx0_3 : ∀ i : grid0.Coords, EltTy.bits .i32 = 32 ∨ (Rect.block (s := S128x2) S16x2.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x2.size a ≤ S128x2.size a
  hwx0_4 : ∀ i : grid0.Coords, EltTy.bits .i32 = 32 ∨ (Rect.block (s := S128x2) S16x2.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1000x80.size a ≤ S128x4000x80.size a
  hwx0_5 : ∀ i : grid0.Coords, EltTy.bits .f32 = 32 ∨ (Rect.block (s := S128x4000x80) S16x1000x80.size (cc0_transform_5 i) (hinb0_5 i)).WholeWords (EltTy.packing .f32)

variable [Facts₀]

abbrev win0_0 : Pipeline.Window sig grid0 :=
  Pipeline.Window.ofSpec (Memref.whole main_arg0) S16x1000x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S16x2.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S16x1000x80.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x4000x80 : Shape := ⟨3, ![128, 4000, 80]⟩
abbrev S128x2 : Shape := ⟨2, ![128, 2]⟩
abbrev S80 : Shape := ⟨1, ![80]⟩
abbrev S1x1x80 : Shape := ⟨3, ![1, 1, 80]⟩
abbrev S128x2x1 : Shape := ⟨3, ![128, 2, 1]⟩
abbrev S128x2x80 : Shape := ⟨3, ![128, 2, 80]⟩
abbrev S_ : Shape := ⟨0, ![]⟩
abbrev S128x80 : Shape := ⟨2, ![128, 80]⟩
abbrev S4000 : Shape := ⟨1, ![4000]⟩
abbrev S1x1x4000 : Shape := ⟨3, ![1, 1, 4000]⟩
abbrev S128x2x4000 : Shape := ⟨3, ![128, 2, 4000]⟩
abbrev S128x4000 : Shape := ⟨2, ![128, 4000]⟩
abbrev S128x1x80 : Shape := ⟨3, ![128, 1, 80]⟩
abbrev S128x4000x1 : Shape := ⟨3, ![128, 4000, 1]⟩

abbrev nBuf : Space → Nat
  | .hbm => 45
  | .vmem => 0
  | .smem => 0
  | _ => 0

abbrev bufTy : (tb : Table) → Fin (tcTables nBuf tb) → BufTy
  | .hbm, ⟨0, _⟩ => ⟨S128x4000x80, .f32⟩
  | .hbm, ⟨1, _⟩ => ⟨S128x2, .i32⟩
  | .hbm, ⟨2, _⟩ => ⟨S128x2, .i32⟩
  | .hbm, ⟨3, _⟩ => ⟨S128x2, .i32⟩
  | .hbm, ⟨4, _⟩ => ⟨S128x2, .i32⟩
  | .hbm, ⟨5, _⟩ => ⟨S80, .i32⟩
  | .hbm, ⟨6, _⟩ => ⟨S1x1x80, .i32⟩
  | .hbm, ⟨7, _⟩ => ⟨S128x2x1, .i32⟩
  | .hbm, ⟨8, _⟩ => ⟨S128x2x80, .i32⟩
  | .hbm, ⟨9, _⟩ => ⟨S128x2x80, .i32⟩
  | .hbm, ⟨10, _⟩ => ⟨S128x2x80, .i1⟩
  | .hbm, ⟨11, _⟩ => ⟨S1x1x80, .i32⟩
  | .hbm, ⟨12, _⟩ => ⟨S128x2, .i32⟩
  | .hbm, ⟨13, _⟩ => ⟨S128x2x1, .i32⟩
  | .hbm, ⟨14, _⟩ => ⟨S128x2x80, .i32⟩
  | .hbm, ⟨15, _⟩ => ⟨S128x2x80, .i32⟩
  | .hbm, ⟨16, _⟩ => ⟨S128x2x80, .i1⟩
  | .hbm, ⟨17, _⟩ => ⟨S128x2x80, .i1⟩
  | .hbm, ⟨18, _⟩ => ⟨S_, .i1⟩
  | .hbm, ⟨19, _⟩ => ⟨S128x80, .i1⟩
  | .hbm, ⟨20, _⟩ => ⟨S4000, .i32⟩
  | .hbm, ⟨21, _⟩ => ⟨S1x1x4000, .i32⟩
  | .hbm, ⟨22, _⟩ => ⟨S128x2x1, .i32⟩
  | .hbm, ⟨23, _⟩ => ⟨S128x2x4000, .i32⟩
  | .hbm, ⟨24, _⟩ => ⟨S128x2x4000, .i32⟩
  | .hbm, ⟨25, _⟩ => ⟨S128x2x4000, .i1⟩
  | .hbm, ⟨26, _⟩ => ⟨S1x1x4000, .i32⟩
  | .hbm, ⟨27, _⟩ => ⟨S128x2, .i32⟩
  | .hbm, ⟨28, _⟩ => ⟨S128x2x1, .i32⟩
  | .hbm, ⟨29, _⟩ => ⟨S128x2x4000, .i32⟩
  | .hbm, ⟨30, _⟩ => ⟨S128x2x4000, .i32⟩
  | .hbm, ⟨31, _⟩ => ⟨S128x2x4000, .i1⟩
  | .hbm, ⟨32, _⟩ => ⟨S128x2x4000, .i1⟩
  | .hbm, ⟨33, _⟩ => ⟨S_, .i1⟩
  | .hbm, ⟨34, _⟩ => ⟨S128x4000, .i1⟩
  | .hbm, ⟨35, _⟩ => ⟨S128x80, .i1⟩
  | .hbm, ⟨36, _⟩ => ⟨S128x1x80, .i1⟩
  | .hbm, ⟨37, _⟩ => ⟨S128x1x80, .f32⟩
  | .hbm, ⟨38, _⟩ => ⟨S128x4000, .i1⟩
  | .hbm, ⟨39, _⟩ => ⟨S128x4000x1, .i1⟩
  | .hbm, ⟨40, _⟩ => ⟨S128x4000x1, .f32⟩
  | .hbm, ⟨41, _⟩ => ⟨S128x4000x80, .f32⟩
  | .hbm, ⟨42, _⟩ => ⟨S128x4000x80, .f32⟩
  | .hbm, ⟨43, _⟩ => ⟨S128x4000x80, .f32⟩
  | .hbm, ⟨44, _⟩ => ⟨S128x4000x80, .f32⟩
  | _, _ => ⟨S128x4000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]

class Facts₀ : Prop where
  bcast_S80_S1x1x80_2 : S80.BroadcastsInDim S1x1x80 (![2] : Fin 1 → Fin S1x1x80.rank)
  bcast_S128x2_S128x2x1_0_1 : S128x2.BroadcastsInDim S128x2x1 (![0, 1] : Fin 2 → Fin S128x2x1.rank)
  bcast_S1x1x80_S128x2x80_0_1_2 : S1x1x80.BroadcastsInDim S128x2x80 (![0, 1, 2] : Fin 3 → Fin S128x2x80.rank)
  bcast_S128x2x1_S128x2x80_0_1_2 : S128x2x1.BroadcastsInDim S128x2x80 (![0, 1, 2] : Fin 3 → Fin S128x2x80.rank)
  reducesTo_S128x2x80_S128x80_d1 : S128x2x80.ReducesTo [1] S128x80
  h_S_ : 0 < S_.numel
  bcast_S4000_S1x1x4000_2 : S4000.BroadcastsInDim S1x1x4000 (![2] : Fin 1 → Fin S1x1x4000.rank)
  bcast_S1x1x4000_S128x2x4000_0_1_2 : S1x1x4000.BroadcastsInDim S128x2x4000 (![0, 1, 2] : Fin 3 → Fin S128x2x4000.rank)
  bcast_S128x2x1_S128x2x4000_0_1_2 : S128x2x1.BroadcastsInDim S128x2x4000 (![0, 1, 2] : Fin 3 → Fin S128x2x4000.rank)
  reducesTo_S128x2x4000_S128x4000_d1 : S128x2x4000.ReducesTo [1] S128x4000
  bcast_S128x80_S128x1x80_0_2 : S128x80.BroadcastsInDim S128x1x80 (![0, 2] : Fin 2 → Fin S128x1x80.rank)
  bcast_S128x4000_S128x4000x1_0_1 : S128x4000.BroadcastsInDim S128x4000x1 (![0, 1] : Fin 2 → Fin S128x4000x1.rank)
  bcast_S128x1x80_S128x4000x80_0_1_2 : S128x1x80.BroadcastsInDim S128x4000x80 (![0, 1, 2] : Fin 3 → Fin S128x4000x80.rank)
  bcast_S128x4000x1_S128x4000x80_0_1_2 : S128x4000x1.BroadcastsInDim S128x4000x80 (![0, 1, 2] : Fin 3 → Fin S128x4000x80.rank)

variable [Facts₀]

class Facts : Prop extends Facts₀ where

variable [Facts]
-- ==== Proof.MaskSpec.lean ====
/-
  The masked array, as ONE function of the five argument arrays, index by index.

  For a batch element b, two frequency bands [s, s + w) and two time spans [s, s + w) are given by integer words
  (start and width, two of each per batch element; the sum s + w wraps like the machine's).  A bin is KEPT when it lies
  in neither band; the keep factor of a bin is the real 0 or 1.  The result at (b, t, f) is

      x (b, t, f) · keep_time (b, t) · keep_freq (b, f).

  Also here: the facts about one-bit words that let both programs' spellings of "not in either band" be read as that one
  factor — the kernel's (or onto false, xor with true, widened to 32 bits, read as a signed integer) and the
  reference's (an or-fold over the two bands from false, complemented, read as an unsigned integer) — and the word of a
  global time position from its tile and its position inside the tile.
-/
import Idealize.ShloMosaic.PureOps.Ideal
import Idealize.ShloMosaic.PureOps.Reduce
import Idealize.ShloMosaic.Lib.ValueIdx

noncomputable section

namespace Cert.Mask

open Idealize.ShloMosaic Idealize.ShloMosaic.ValueIdx

/-- The one-bit word saying that `x` lies in the band [s, s + w): s ≤ x and x < s + w, both signed, the sum wrapping. -/
def inBand (s w x : BitVec 32) : BitVec 1 :=
  IntOp.andi (IntOp.cmpi .sge x s) (IntOp.cmpi .slt x (IntOp.addi s w))

/-- The keep factor of position `x` against two bands: the real 1 when `x` is in neither, 0 otherwise. -/
def keep (s0 w0 s1 w1 x : BitVec 32) : EReal :=
  (((~~~(inBand s0 w0 x ||| inBand s1 w1 x)).toNat : ℝ) : EReal)

/-- The masked array at (b, t, f): the entry times the time keep factor of (b, t) times the frequency keep factor of
    (b, f).  Arguments in the programs' order: x, the frequency widths and starts, the time widths and starts. -/
def masked (x : (⟨3, ![128, 4000, 80]⟩ : Shape).Idx → EReal) (fw fs tw ts : (⟨2, ![128, 2]⟩ : Shape).Idx → BitVec 32) :
    (⟨3, ![128, 4000, 80]⟩ : Shape).Idx → EReal := fun j =>
  x j * keep (ts (ix2 (j 0 : Fin 128) (0 : Fin 2))) (tw (ix2 (j 0 : Fin 128) (0 : Fin 2)))
             (ts (ix2 (j 0 : Fin 128) (1 : Fin 2))) (tw (ix2 (j 0 : Fin 128) (1 : Fin 2))) (BitVec.ofNat 32 (j 1).val)
      * keep (fs (ix2 (j 0 : Fin 128) (0 : Fin 2))) (fw (ix2 (j 0 : Fin 128) (0 : Fin 2)))
             (fs (ix2 (j 0 : Fin 128) (1 : Fin 2))) (fw (ix2 (j 0 : Fin 128) (1 : Fin 2))) (BitVec.ofNat 32 (j 2).val)

/-- Or onto false of two one-bit words, xor true, widened to 32 bits and read as a signed integer, is the complement of
    their or read as a natural number: both are 1 exactly when both words are 0. -/
theorem signed_xor_true (u v : BitVec 1) :
    ((((IntOp.xori (IntOp.ori (IntOp.ori 0#1 u) v) 1#1).setWidth 32).toInt : ℝ) : EReal) = (((~~~(u ||| v)).toNat : ℝ) : EReal) := by
  have h : ∀ u v : BitVec 1, ((IntOp.xori (IntOp.ori (IntOp.ori 0#1 u) v) 1#1).setWidth 32).toInt = ((~~~(u ||| v)).toNat : ℤ) := by
    decide
  rw [h u v, Int.cast_natCast]

/-- An or-fold from false over the two positions of an axis of extent two is the or of the two entries. -/
theorem fold_or_two (g : Fin 2 → BitVec 1) : (Finset.univ : Finset (Fin 2)).fold IntOp.ori 0#1 g = g 0 ||| g 1 := by
  have hu : (Finset.univ : Finset (Fin 2)) = insert 0 {1} := by decide
  rw [hu, Finset.fold_insert (by decide), Finset.fold_singleton]
  show g 0 ||| (g 1 ||| 0#1) = g 0 ||| g 1
  rw [BitVec.or_zero]

/-- The word of the global position `k · 1000 + q` is the word of `q` plus the word of `k` times the word of 1000. -/
theorem time_word (k q : Nat) :
    BitVec.ofNat 32 (k * 1000 + q) = IntOp.addi (BitVec.ofNat 32 q) (IntOp.muli (BitVec.ofNat 32 k) 1000#32) := by
  show BitVec.ofNat 32 (k * 1000 + q) = BitVec.ofNat 32 q + BitVec.ofNat 32 k * 1000#32
  rw [BitVec.add_comm, BitVec.ofNat_add, BitVec.ofNat_mul]

end Cert.Mask

end
-- ==== Proof.LibKeepdims.lean ====
/-
  Two layout operations of a sum taken with the reduced axis kept, read at an index.  A vector of length a viewed as
  a column [a, 1] holds, at (i, 0), the vector's entry i; a column [a, 1] broadcast along a new second axis to [a, b]
  holds, at (i, c), the column's entry (i, 0).  Together they say that a row-wise quantity, kept as a column and
  spread over a block, is read at (i, c) as the quantity of row i.
-/
import Idealize.ShloMosaic.Lib.Pipeline.Value
import Idealize.ShloMosaic.Lib.ValueIdx

namespace Idealize.ShloMosaic.ValueIdx

variable {α : Type}

/-- A vector [a] cast to a column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (i, c), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.LibPairBroadcast.lean ====
/-
  Layout operations of an all-pairs comparison of the rows of two matrices, read at an index.  A matrix [a, b]
  viewed as [a, 1, b] holds, at (i, 0, k), its entry (i, k); spread along the new middle axis to [a, c, b] it holds
  that entry at every (i, j, k).  A matrix [c, b] viewed as [1, c, b] and spread along the new leading axis to
  [a, c, b] holds, at (i, j, k), its entry (j, k).  Together: the cube whose entry (i, j, k) pairs row i of the first
  matrix with row j of the second at column k.
-/
import Idealize.ShloMosaic.Lib.Pipeline.Value
import Idealize.ShloMosaic.Lib.ValueIdx
import Idealize.ShloMosaic.Lib.ValueLayout

namespace Idealize.ShloMosaic.ValueIdx

variable {α : Type}

/-- A matrix [a, b] cast to [a, 1, b] reads, at (i, u, k), the matrix at (i, k), whatever the unit coordinate u. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- An array [a, 1, b] broadcast to [a, c, b] reads, at (i, j, k), the operand at (i, 0, k). -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (j : Fin c) (k : Fin b) :
    broadcastTo ⟨3, ![a, c, b]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if b = 1 then 0 else k.val
    split
    · have := k.isLt; omega
    · rfl

/-- An array [1, c, b] broadcast to [a, c, b] reads, at (i, j, k), the operand at (0, j, k). -/
theorem broadcastTo_1cb_acb_apply {a c b : ℕ} (v : (⟨3, ![1, c, b]⟩ : Shape).Idx → α)
    (h : (⟨3, ![1, c, b]⟩ : Shape).Broadcasts ⟨3, ![a, c, b]⟩) (i : Fin a) (j : Fin c) (k : Fin b) :
    broadcastTo ⟨3, ![a, c, b]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if c = 1 then 0 else j.val
    split
    · have := j.isLt; omega
    · rfl
  | ⟨2, _⟩ =>
    show k.val = if b = 1 then 0 else k.val
    split
    · have := k.isLt; omega
    · rfl

end Idealize.ShloMosaic.ValueIdx
-- ==== Proof.LibReshape.lean ====
/-
  Layout operations read at an index, for shapes the value library does not yet spell out.

  * A trailing unit axis: an `[a, b]` array cast to `[a, b, 1]`, and an `[a, b, 1]` array broadcast
    along its unit axis to `[a, b, c]`. Together they read a per-(row, group) quantity at every lane of
    the group.
  * Two adjacent axes merged or split by a cast, row-major order kept: `[a, b, c]` to `[a, b * c]`
    (the last two axes merged), `[a, b, c]` to `[a * b, c]` (the first two merged) and back. The merged
    coordinate is `j * c + k`, respectively `i * b + j`; the lemmas take it as a variable with that
    equation, so that a caller may present it in whichever form it has (a quotient and remainder, or a
    product and sum).

  All of them are the library's `shapeCast_apply` / `broadcastTo_apply` with the two row-major positions
  computed.
-/
import Idealize.ShloMosaic.Lib.Pipeline.Value
import Idealize.ShloMosaic.Lib.ValueIdx

namespace Cert.LibReshape

open Idealize.ShloMosaic Idealize.ShloMosaic.ValueIdx

variable {α : Type}

/-! ## A trailing unit axis -/

/-- An `[a, b]` array cast to `[a, b, 1]` reads, at `(i, j, u)`, the operand at `(i, j)`, whatever the unit
    coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array broadcast to `[a, b, c]` reads, at `(i, j, k)`, the operand at `(i, j, 0)`: the value
    does not depend on the position `k` along the broadcast axis. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Two adjacent axes merged or split -/

/-- An `[a, b, c]` array cast to `[a, n]` with `n = b * c` reads, at `(i, q)` with `q = j * c + k`, the operand at
    `(i, j, k)`. -/
theorem shapeCast_abc_a_bc_apply {a b c n : ℕ} (x : (⟨3, ![a, b, c]⟩ : Shape).Idx → α)
    (h : (⟨3, ![a, b, c]⟩ : Shape).ShapeCasts ⟨2, ![a, n]⟩) (hn : n = b * c)
    (i : Fin a) (j : Fin b) (k : Fin c) (q : Fin n) (hq : q.val = j.val * c + k.val) :
    shapeCast ⟨2, ![a, n]⟩ x h (ix2 i q) = x (ix3 i j k) :=
  shapeCast_apply x h _ _ (by
    rw [Shape.rowMajor_val_three, Shape.rowMajor_val_two]
    show (i.val * b + j.val) * c + k.val = i.val * n + q.val
    rw [hq, hn, Nat.add_mul, Nat.mul_assoc, Nat.add_assoc])

/-- An `[a, b, c]` array cast to `[n, c]` (with `n = a * b`) reads, at `(r, k)` with `r = i * b + j`, the operand at
    `(i, j, k)`. -/
theorem shapeCast_abc_ab_c_apply {a b c n : ℕ} (x : (⟨3, ![a, b, c]⟩ : Shape).Idx → α)
    (h : (⟨3, ![a, b, c]⟩ : Shape).ShapeCasts ⟨2, ![n, c]⟩)
    (i : Fin a) (j : Fin b) (k : Fin c) (r : Fin n) (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array (with `n = a * b`) cast to `[a, b, c]` reads, at `(i, j, k)`, the operand at `(r, k)` with
    `r = i * b + j`. -/
theorem shapeCast_ab_c_abc_apply {a b c n : ℕ} (x : (⟨2, ![n, c]⟩ : Shape).Idx → α)
    (h : (⟨2, ![n, c]⟩ : Shape).ShapeCasts ⟨3, ![a, b, c]⟩)
    (i : Fin a) (j : Fin b) (k : Fin c) (r : Fin n) (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibReshape
-- ==== Proof.KernelBlock.lean ====
/-
  What the kernel's body leaves in its output block, index by index.

  At a grid point with coordinates i = (i₀, i₁) the body holds a block x0 of shape [16, 1000, 80] of x and four blocks
  [16, 2] of integer words: frequency starts x1, frequency widths x2, time starts x3, time widths x4 (row p of a block is a
  batch element, its two columns the two bands).  It builds a frequency keep array [16, 80] (position r against the two
  bands of row p), a time keep array [16, 1000] (global position i₁ · 1000 + q against the two spans of row p), spreads
  the time array along the last axis and the frequency array along the middle axis, and stores

      x0 (p, q, r) · keep_time (p, q) · keep_freq (p, r)

  through the whole-block rectangle.  Each keep entry is the real 0 or 1 of `Cert.Mask.keep`.
-/
import proofs.«159147_j75239237092009_2_alg».proof.Proof.FrameKernelIdeal
import proofs.«159147_j75239237092009_2_alg».proof.Proof.MaskSpec
import proofs.«159147_j75239237092009_2_alg».proof.Proof.LibKeepdims
import proofs.«159147_j75239237092009_2_alg».proof.Proof.LibPairBroadcast
import proofs.«159147_j75239237092009_2_alg».proof.Proof.LibReshape
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.Mask Cert.LibReshape

/-! ## Integer vector operations read at an index -/

section Pointwise
variable {s : Shape} {w : Nat}

theorem cmpi_at (p : CmpIPredicate) (x y : IVec s w) (i : s.Idx) : cmpi p x y i = IntOp.cmpi p (x i) (y i) := rfl
theorem andi_at (x y : IVec s w) (i : s.Idx) : andi x y i = IntOp.andi (x i) (y i) := rfl
theorem ori_at (x y : IVec s w) (i : s.Idx) : ori x y i = IntOp.ori (x i) (y i) := rfl
theorem xori_at (x y : IVec s w) (i : s.Idx) : xori x y i = IntOp.xori (x i) (y i) := rfl
theorem addi_at (x y : IVec s w) (i : s.Idx) : addi x y i = IntOp.addi (x i) (y i) := rfl
theorem constantI_at (b : BitVec w) (i : s.Idx) : constantI s w b i = b := rfl

end Pointwise

/-- The position along the last axis of a rank-two array, as a word: what `tpu.iota` along that axis holds at (p, r). -/
theorem iota_last2 {a b : ℕ} (h : (⟨2, ![a, b]⟩ : Shape).Iotas .tc 32 [1]) (p : Fin a) (r : Fin b) :
    iota .tc ⟨2, ![a, b]⟩ 32 [1] h (ix2 p r) = BitVec.ofNat 32 r.val :=
  iota_single_apply _ _ _ _ h _

theorem hz3 : (![0, 0, 0] : Fin 3 → Nat) = fun _ => 0 := funext fun a => by fin_cases a <;> rfl

/-! ## The loads of the band columns -/

/-- Column 0 of a [16, 2] block, loaded as a [16, 1] column, at row p. -/
theorem ld_col0 (x : Vec Ideal S16x2 .i32) (p : Fin 16) :
    View.ld x GenP.r0_0 (ix2 p (0 : Fin 1)) = x (ix2 p (0 : Fin 2)) := by
  show x (GenP.r0_0.idx (ix2 p (0 : Fin 1))) = x (ix2 p (0 : Fin 2))
  refine congrArg x (funext fun a => Fin.ext ?_)
  match a with
  | ⟨0, _⟩ => show 0 + 1 * p.val = p.val; omega
  | ⟨1, _⟩ => rfl

/-- Column 1 of a [16, 2] block, loaded as a [16, 1] column, at row p. -/
theorem ld_col1 (x : Vec Ideal S16x2 .i32) (p : Fin 16) :
    View.ld x GenP.r0_1 (ix2 p (0 : Fin 1)) = x (ix2 p (1 : Fin 2)) := by
  show x (GenP.r0_1.idx (ix2 p (0 : Fin 1))) = x (ix2 p (1 : Fin 2))
  refine congrArg x (funext fun a => Fin.ext ?_)
  match a with
  | ⟨0, _⟩ => show 0 + 1 * p.val = p.val; omega
  | ⟨1, _⟩ => rfl

/-! ## The time position -/

/-- The body's time position at (p, q) of the tile with coordinate i₁ is the word of the global position i₁ · 1000 + q. -/
theorem time_pos (i : grid0.Coords) (p : Fin 16) (q : Fin 1000) :
    k0_pay3 i (ix2 p q) = BitVec.ofNat 32 ((i 1).val * 1000 + q.val) := by
  unfold k0_pay3
  simp only [addi_at, broadcast_apply]
  rw [iota_last2 iota_S16x1000_d1_w32 p q]
  exact (time_word (i 1).val q.val).symm

/-! ## The keep factors -/

/-- The frequency keep array at (p, r): position r against the two bands of row p. -/
theorem freq_factor (v2 v3 v11 v12 : Vec Ideal S16x1 .i32) (p : Fin 16) (r : Fin 80) :
    k0_pay2 (F := Ideal) v2 v3 v11 v12 (ix2 p r)
      = keep (v2 (ix2 p (0 : Fin 1))) (v3 (ix2 p (0 : Fin 1))) (v11 (ix2 p (0 : Fin 1))) (v12 (ix2 p (0 : Fin 1)))
          (BitVec.ofNat 32 r.val) := by
  unfold k0_pay2
  simp only [sitofp_apply, extui_apply, xori_at, ori_at, andi_at, cmpi_at, addi_at, constantI_at, broadcast_apply,
    broadcastTo_a1_ab_apply]
  rw [iota_last2 iota_S16x80_d1_w32 p r]
  exact signed_xor_true _ _

/-- The first span's part of the time mask at (p, q). -/
theorem time_first (i : grid0.Coords) (v28 v29 : Vec Ideal S16x1 .i32) (p : Fin 16) (q : Fin 1000) :
    k0_pay4 (F := Ideal) i v28 v29 (ix2 p q)
      = IntOp.ori 0#1 (inBand (v28 (ix2 p (0 : Fin 1))) (v29 (ix2 p (0 : Fin 1))) (BitVec.ofNat 32 ((i 1).val * 1000 + q.val))) := by
  unfold k0_pay4
  simp only [ori_at, andi_at, cmpi_at, addi_at, broadcast_apply, broadcastTo_a1_ab_apply, time_pos]
  rfl

/-! ## The stored value -/

/-- What the body leaves in the output block at (p, q, r): the entry of x0 times the time keep factor of (p, q) — the
    global time position i₁ · 1000 + q against the two spans of row p — times the frequency keep factor of (p, r). -/
theorem block_apply (i : grid0.Coords) (x0 : Vec Ideal S16x1000x80 .f32) (x1 x2 x3 x4 : Vec Ideal S16x2 .i32)
    (p : Fin 16) (q : Fin 1000) (r : Fin 80) :
    GenP.out0_5 (F := Ideal) i x0 x1 x2 x3 x4 (ix3 p q r)
      = x0 (ix3 p q r)
          * keep (x3 (ix2 p (0 : Fin 2))) (x4 (ix2 p (0 : Fin 2))) (x3 (ix2 p (1 : Fin 2))) (x4 (ix2 p (1 : Fin 2)))
              (BitVec.ofNat 32 ((i 1).val * 1000 + q.val))
          * keep (x1 (ix2 p (0 : Fin 2))) (x2 (ix2 p (0 : Fin 2))) (x1 (ix2 p (1 : Fin 2))) (x2 (ix2 p (1 : Fin 2)))
              (BitVec.ofNat 32 r.val) := by
  unfold GenP.out0_5
  rw [View.canon_unit_zero hz3]
  simp only [View.ld_unit_zero (S := S16x1000x80) hz3]
  unfold k0_pay1
  simp only [mulf_apply, broadcastTo_ab1_abc_apply, shapeCast_ab_ab1_apply, broadcastTo_a1b_acb_apply, shapeCast_ab_a1b_apply,
    sitofp_apply, extui_apply, xori_at, ori_at, andi_at, cmpi_at, addi_at, constantI_at, broadcastTo_a1_ab_apply,
    freq_factor, time_first, time_pos]
  rw [ld_col0 x1 p, ld_col0 x2 p, ld_col0 x3 p, ld_col0 x4 p, ld_col1 x1 p, ld_col1 x2 p, ld_col1 x3 p, ld_col1 x4 p]
  congr 2
  exact signed_xor_true _ _

/-- The stored value at block index y is the masked array of any five arrays A0 … A4 at index k, provided k is the array
    position of y in the point's block (row i₀ · 16 + p is carried by the hypotheses on the integer blocks; time
    i₁ · 1000 + q; frequency r) and the point's blocks are the corresponding pieces of the arrays.  The integer blocks are
    the pallas_call's operands in ITS order — frequency starts, frequency widths, time starts, time widths — while
    `masked` takes the arrays in the entry point's order: widths before starts. -/
theorem block_eq (i : grid0.Coords) (x0 : Vec Ideal S16x1000x80 .f32) (x1 x2 x3 x4 : Vec Ideal S16x2 .i32)
    (A0 : (⟨3, ![128, 4000, 80]⟩ : Shape).Idx → EReal) (A1 A2 A3 A4 : (⟨2, ![128, 2]⟩ : Shape).Idx → BitVec 32)
    (y : (⟨3, ![16, 1000, 80]⟩ : Shape).Idx) (k : (⟨3, ![128, 4000, 80]⟩ : Shape).Idx)
    (p : Fin 16) (q : Fin 1000) (r : Fin 80) (b : Fin 128) (t : Fin 4000) (f : Fin 80)
    (hy : y = ix3 p q r) (hk : k = ix3 b t f) (ht : t.val = (i 1).val * 1000 + q.val) (hf : f.val = r.val)
    (h0 : x0 y = A0 k)
    (h1 : ∀ e : Fin 2, x1 (ix2 p e) = A2 (ix2 b e)) (h2 : ∀ e : Fin 2, x2 (ix2 p e) = A1 (ix2 b e))
    (h3 : ∀ e : Fin 2, x3 (ix2 p e) = A4 (ix2 b e)) (h4 : ∀ e : Fin 2, x4 (ix2 p e) = A3 (ix2 b e)) :
    GenP.out0_5 (F := Ideal) i x0 x1 x2 x3 x4 y = masked A0 A1 A2 A3 A4 k := by
  subst hy hk
  obtain rfl : f = r := Fin.ext hf
  rw [block_apply, h0, h1 0, h1 1, h2 0, h2 1, h3 0, h3 1, h4 0, h4 1, ← ht]
  rfl

end Cert.KernelIdeal.Block

end
-- ==== Proof.KernelArray.lean ====
/-
  From blocks to the array: after the run the kernel's result array is the masked array of its arguments.

  The grid has 8 × 4 points; the point with coordinates (i₀, i₁) works on rows i₀ · 16 … i₀ · 16 + 15 of the batch axis
  and on time positions i₁ · 1000 … i₁ · 1000 + 999, with the whole frequency axis.  Every window's block index is read
  off the grid coordinates (decided once over the 32 points), so the block index y = (p, q, r) of the output block sits at
  array index (i₀ · 16 + p, i₁ · 1000 + q, r), the input block of x is the same piece of x, and row p of each integer block
  is row i₀ · 16 + p of its array.  Hence what a point writes back is its block of `masked` of the argument arrays; the 32
  blocks tile the array (the point covering (b, t, f) is the one with coordinates (b / 16, t / 1000)); so the array ends
  holding `masked` of the arguments, and the arguments are unchanged.
-/
import proofs.«159147_j75239237092009_2_alg».proof.Proof.KernelBlock
import Idealize.ShloMosaic.Lib.Pipeline.Value

noncomputable section

namespace Cert.KernelIdeal.Whole

open Cert.KernelIdeal Cert.KernelIdeal.Gen Cert.KernelIdeal.GenP Idealize.ShloMosaic Idealize.ShloMosaic.TcCoe Idealize.SL.Sem
open Idealize.ShloMosaic.ValueIdx Cert.Mask
open Idealize.ShloMosaic.Pipeline (Dat)

variable (m : (ℓ : Loc nD τ sig) → Buf (Elt Ideal) ℓ) (ρ : Dev nD → PrngReg)

/-- The printed index maps, decided over the grid: the output's and x's block indices are the point's two coordinates (and 0
    on the frequency axis); each integer window's block index is the first coordinate (and 0 on its second axis). -/
theorem idx_facts : ∀ t : Fin cfg0.N,
    win0_5.index t (0 : Fin 3) = (grid0.coords t 0).val ∧ win0_5.index t (1 : Fin 3) = (grid0.coords t 1).val
    ∧ win0_5.index t (2 : Fin 3) = 0
    ∧ win0_0.index t (0 : Fin 3) = (grid0.coords t 0).val ∧ win0_0.index t (1 : Fin 3) = (grid0.coords t 1).val
    ∧ win0_0.index t (2 : Fin 3) = 0
    ∧ win0_1.index t (0 : Fin 2) = (grid0.coords t 0).val ∧ win0_1.index t (1 : Fin 2) = 0
    ∧ win0_2.index t (0 : Fin 2) = (grid0.coords t 0).val ∧ win0_2.index t (1 : Fin 2) = 0
    ∧ win0_3.index t (0 : Fin 2) = (grid0.coords t 0).val ∧ win0_3.index t (1 : Fin 2) = 0
    ∧ win0_4.index t (0 : Fin 2) = (grid0.coords t 0).val ∧ win0_4.index t (1 : Fin 2) = 0
    ∧ (grid0.coords t 0).val < 8 ∧ (grid0.coords t 1).val < 4 :=
  (by decide +kernel : ∀ t : Fin grid0.N, _)

/-- Every pair of block coordinates is some point's. -/
theorem idx_onto : ∀ (q0 : Fin 8) (q1 : Fin 4), ∃ t : Fin cfg0.N, win0_5.index t = ![q0.val, q1.val, 0] :=
  (by decide +kernel : ∀ (q0 : Fin 8) (q1 : Fin 4), ∃ t : Fin grid0.N, win0_5.index t = ![q0.val, q1.val, 0])

/-- Row p, column e of an integer window's block at point t is row (first coordinate) · 16 + p, column e of its array:
    stated once for an abstract block-to-array map with the two coordinate equations. -/
theorem row_index (emb : (⟨2, ![16, 2]⟩ : Shape).Idx → (⟨2, ![128, 2]⟩ : Shape).Idx) (p : Fin 16) (e : Fin 2) (b : Fin 128)
    (h0 : (emb (ix2 p e) 0).val = b.val) (h1 : (emb (ix2 p e) 1).val = e.val) : emb (ix2 p e) = ix2 b e :=
  funext fun a => Fin.ext (match a with | ⟨0, _⟩ => h0 | ⟨1, _⟩ => h1)

/-- WHAT POINT t WRITES BACK is block t of the masked array of the argument arrays as the region finds them. -/
theorem flushed_eq (c : Dev nD) (t : Fin cfg0.N) :
    (dats m 0 c).flushed 5 t = ((cfg0.win 5).blk t).view.read (Elt Ideal)
      (masked (V m c main_arg0) (V m c main_arg1) (V m c main_arg2) (V m c main_arg3) (V m c main_arg4)) := by
  show (cfg0.win 5).cut (grid0.coords t) ((dats m 0 c).after 5 t) = _
  rw [after0_5]
  obtain ⟨e50, e51, e52, e00, e01, e02, e10, e11, e20, e21, e30, e31, e40, e41, hc0, hc1⟩ := idx_facts t
  funext y
  have hy0 : (y 0).val < 16 := (y 0).isLt
  have hy1 : (y 1).val < 1000 := (y 1).isLt
  have hy2 : (y 2).val < 80 := (y 2).isLt
  -- the array index under block index y
  have k0 : ((((cfg0.win 5).blk t).view.emb y) 0).val = (grid0.coords t 0).val * 16 + (y 0).val := by
    show win0_5.index t (0 : Fin 3) * 16 + 1 * (y 0).val = _; omega
  have k1 : ((((cfg0.win 5).blk t).view.emb y) 1).val = (grid0.coords t 1).val * 1000 + (y 1).val := by
    show win0_5.index t (1 : Fin 3) * 1000 + 1 * (y 1).val = _; omega
  have k2 : ((((cfg0.win 5).blk t).view.emb y) 2).val = (y 2).val := by
    show win0_5.index t (2 : Fin 3) * 80 + 1 * (y 2).val = _; omega
  refine Block.block_eq (grid0.coords t) (iblk m c 0 t) (iblk m c 1 t) (iblk m c 2 t) (iblk m c 3 t) (iblk m c 4 t)
    (V m c main_arg0) (V m c main_arg1) (V m c main_arg2) (V m c main_arg3) (V m c main_arg4)
    y (((cfg0.win 5).blk t).view.emb y) (y 0) (y 1) (y 2)
    ((((cfg0.win 5).blk t).view.emb y) 0) ((((cfg0.win 5).blk t).view.emb y) 1) ((((cfg0.win 5).blk t).view.emb y) 2)
    (eq_ix3 y) (eq_ix3 _) k1 k2 ?_ ?_ ?_ ?_ ?_
  · -- x's block is the same piece of x
    show V m c main_arg0 (((cfg0.win 0).blk t).view.emb y) = V m c main_arg0 (((cfg0.win 5).blk t).view.emb y)
    have h : ((cfg0.win 0).blk t).view.emb y = ((cfg0.win 5).blk t).view.emb y := by
      funext a; apply Fin.ext
      match a with
      | ⟨0, _⟩ => show win0_0.index t (0 : Fin 3) * 16 + 1 * (y 0).val = win0_5.index t (0 : Fin 3) * 16 + 1 * (y 0).val; omega
      | ⟨1, _⟩ => show win0_0.index t (1 : Fin 3) * 1000 + 1 * (y 1).val = win0_5.index t (1 : Fin 3) * 1000 + 1 * (y 1).val; omega
      | ⟨2, _⟩ => show win0_0.index t (2 : Fin 3) * 80 + 1 * (y 2).val = win0_5.index t (2 : Fin 3) * 80 + 1 * (y 2).val; omega
    rw [h]
  · -- frequency starts: window 1 stages argument 2
    intro e
    show V m c main_arg2 (((cfg0.win 1).blk t).view.emb (ix2 (y 0) e)) = V m c main_arg2 (ix2 _ e)
    have h : ((cfg0.win 1).blk t).view.emb (ix2 (y 0) e) = ix2 ((((cfg0.win 5).blk t).view.emb y) 0) e :=
      row_index (fun z => ((cfg0.win 1).blk t).view.emb z) (y 0) e ((((cfg0.win 5).blk t).view.emb y) 0)
        (by show win0_1.index t (0 : Fin 2) * 16 + 1 * (y 0).val = _; omega)
        (by show win0_1.index t (1 : Fin 2) * 2 + 1 * e.val = e.val; omega)
    rw [h]
    rfl
  · -- frequency widths: window 2 stages argument 1
    intro e
    show V m c main_arg1 (((cfg0.win 2).blk t).view.emb (ix2 (y 0) e)) = V m c main_arg1 (ix2 _ e)
    have h : ((cfg0.win 2).blk t).view.emb (ix2 (y 0) e) = ix2 ((((cfg0.win 5).blk t).view.emb y) 0) e :=
      row_index (fun z => ((cfg0.win 2).blk t).view.emb z) (y 0) e ((((cfg0.win 5).blk t).view.emb y) 0)
        (by show win0_2.index t (0 : Fin 2) * 16 + 1 * (y 0).val = _; omega)
        (by show win0_2.index t (1 : Fin 2) * 2 + 1 * e.val = e.val; omega)
    rw [h]
    rfl
  · -- time starts: window 3 stages argument 4
    intro e
    show V m c main_arg4 (((cfg0.win 3).blk t).view.emb (ix2 (y 0) e)) = V m c main_arg4 (ix2 _ e)
    have h : ((cfg0.win 3).blk t).view.emb (ix2 (y 0) e) = ix2 ((((cfg0.win 5).blk t).view.emb y) 0) e :=
      row_index (fun z => ((cfg0.win 3).blk t).view.emb z) (y 0) e ((((cfg0.win 5).blk t).view.emb y) 0)
        (by show win0_3.index t (0 : Fin 2) * 16 + 1 * (y 0).val = _; omega)
        (by show win0_3.index t (1 : Fin 2) * 2 + 1 * e.val = e.val; omega)
    rw [h]
    rfl
  · -- time widths: window 4 stages argument 3
    intro e
    show V m c main_arg3 (((cfg0.win 4).blk t).view.emb (ix2 (y 0) e)) = V m c main_arg3 (ix2 _ e)
    have h : ((cfg0.win 4).blk t).view.emb (ix2 (y 0) e) = ix2 ((((cfg0.win 5).blk t).view.emb y) 0) e :=
      row_index (fun z => ((cfg0.win 4).blk t).view.emb z) (y 0) e ((((cfg0.win 5).blk t).view.emb y) 0)
        (by show win0_4.index t (0 : Fin 2) * 16 + 1 * (y 0).val = _; omega)
        (by show win0_4.index t (1 : Fin 2) * 2 + 1 * e.val = e.val; omega)
    rw [h]
    rfl

/-- An index of the array is in point t's block iff each coordinate is in the block's range on its axis. -/
theorem mem_blk (t : Fin cfg0.N) (i : S128x4000x80.Idx) :
    i ∈ ((cfg0.win 5).blk t).view.set ↔ ∀ a : Fin 3, win0_5.index t a * S16x1000x80.size a ≤ (i a).val
      ∧ (i a).val < win0_5.index t a * S16x1000x80.size a + S16x1000x80.size a := by
  show i ∈ ((View.whole main_v0).slice (win0_5.rect t)).set ↔ _
  rw [View.set_slice_whole, Rect.mem_set_unit]
  exact Iff.rfl

/-- The 32 blocks tile the array: (b, t, f) is in the block of the point with coordinates (b / 16, t / 1000). -/
theorem cover (i : S128x4000x80.Idx) :
    ∃ t : Fin cfg0.N, (cfg0.win 5).flush t = true ∧ i ∈ ((cfg0.win 5).blk t).view.set := by
  have hi0 : (i 0).val < 128 := (i 0).isLt
  have hi1 : (i 1).val < 4000 := (i 1).isLt
  have hi2 : (i 2).val < 80 := (i 2).isLt
  obtain ⟨t, ht⟩ := idx_onto ⟨(i 0).val / 16, by omega⟩ ⟨(i 1).val / 1000, by omega⟩
  have q0 : win0_5.index t (0 : Fin 3) = (i 0).val / 16 := congrFun ht 0
  have q1 : win0_5.index t (1 : Fin 3) = (i 1).val / 1000 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 16 ≤ (i 0).val ∧ (i 0).val < win0_5.index t (0 : Fin 3) * 16 + 16; omega
  | ⟨1, _⟩ => show win0_5.index t (1 : Fin 3) * 1000 ≤ (i 1).val ∧ (i 1).val < win0_5.index t (1 : Fin 3) * 1000 + 1000; omega
  | ⟨2, _⟩ => show win0_5.index t (2 : Fin 3) * 80 ≤ (i 2).val ∧ (i 2).val < win0_5.index t (2 : Fin 3) * 80 + 80; omega

/-- THE ARRAY after the run: the masked array of the arguments as launched. -/
theorem final (c : Dev nD) : (dats m 0 c).arrAt 5 cfg0.N
    = masked (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5
    (masked (V m c main_arg0) (V m c main_arg1) (V m c main_arg2) (V m c main_arg3) (V m c main_arg4))
    (fun t _ => flushed_eq m c t) cover

/-- The kernel's run, read: the result array at the masked array of the arguments, the arguments unchanged. -/
theorem run : θ_run defs (onTc (τ := τ) (main (F := Ideal))) ⟨m, fun _ => 0, ρ⟩ fun r => ∀ c : Dev nD,
      r.2.mem ((c : Thread nD τ).loc main_v0)
        = masked (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 4).trans (((dats m 0 c).arrAt_in 4 rfl _).trans ((A_eq m c 4).trans (V_main_arg3 m c))),
      ((h c).1 3).trans (((dats m 0 c).arrAt_in 3 rfl _).trans ((A_eq m c 3).trans (V_main_arg4 m c)))⟩)
    (run_main m ρ)

end Cert.KernelIdeal.Whole

end
-- ==== Proof.RefMask.lean ====
/-
  The reference's result is the masked array.

  Read one operation at a time, the reference compares a frequency (time) position against each band's start and against
  start + width, ands the two comparisons, or-reduces over the two bands of the batch element from false, complements,
  converts the one-bit word to a float as an unsigned integer, and multiplies x by the product of the two factors spread
  over the array.  At (b, c, f) the and of the comparisons is `inBand` of band c of batch element b; an or-reduction
  over an axis of extent two is the or of its two entries; so each factor is `keep`, and the result at (b, t, f) is
  x · (keep_freq · keep_time), which is x · keep_time · keep_freq because multiplication of extended reals is
  commutative and associative.
-/
import proofs.«159147_j75239237092009_2_alg».proof.Proof.Gen.ReferenceIdeal.Read
import proofs.«159147_j75239237092009_2_alg».proof.Proof.MaskSpec
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Mask

/-! ## Frequency -/

/-- The and of the two comparisons at (b, c, f): frequency position f in band c of batch element b. -/
theorem freq_band (x1 x2 : (⟨S128x2, .i32⟩ : BufTy).Contents (Elt Ideal)) (b : Fin 128) (c : Fin 2) (f : Fin 80) :
    val_main_v12 (F := Ideal) x1 x2 (ix3 b c f) = inBand (x2 (ix2 b c)) (x1 (ix2 b c)) (BitVec.ofNat 32 f.val) := by
  rw [val_main_v12_apply, val_main_v5_apply, val_main_v11_apply, val_main_v3_apply, val_main_v1_apply, val_main_v0_apply,
    val_main_v4_apply, val_main_v2_apply, val_main_v9_apply, val_main_v6_apply, val_main_v0_apply, val_main_v10_apply,
    val_main_v8_apply, val_main_v7_apply]
  have e : idx_main_v2 (idx_main_v4 (ix3 b c f)) = ix2 b c :=
    funext fun a => match a with | ⟨0, _⟩ => rfl | ⟨1, _⟩ => rfl
  have e' : idx_main_v8 (idx_main_v10 (ix3 b c f)) = ix2 b c :=
    funext fun a => match a with | ⟨0, _⟩ => rfl | ⟨1, _⟩ => rfl
  rw [e, e']
  rfl

/-- The source index over (b, f) with band coordinate c. -/
theorem freq_lift (hR : S128x2x80.Reduces [1] S128x80) (b : Fin 128) (f : Fin 80) (c : Fin 2) :
    hR.lift (ix2 b f) c = ix3 b c f :=
  funext fun a => Fin.ext (match a with | ⟨0, _⟩ => rfl | ⟨1, _⟩ => rfl | ⟨2, _⟩ => rfl)

/-- The or-reduction over the two bands at (b, f). -/
theorem freq_any (x1 x2 : (⟨S128x2, .i32⟩ : BufTy).Contents (Elt Ideal)) (b : Fin 128) (f : Fin 80) :
    val_main_v13 (F := Ideal) x1 x2 (ix2 b f)
      = inBand (x2 (ix2 b 0)) (x1 (ix2 b 0)) (BitVec.ofNat 32 f.val) ||| inBand (x2 (ix2 b 1)) (x1 (ix2 b 1)) (BitVec.ofNat 32 f.val) := by
  have hR : S128x2x80.Reduces [1] S128x80 := by decide
  unfold val_main_v13
  refine (Host.reduce_eq_fold_single IntOp.ori _ _ _ hR _ (ix2 b f)).trans ((fold_or_two _).trans ?_)
  show val_main_v12 (F := Ideal) x1 x2 (hR.lift (ix2 b f) (0 : Fin 2)) ||| val_main_v12 (F := Ideal) x1 x2 (hR.lift (ix2 b f) (1 : Fin 2)) = _
  rw [freq_lift hR b f 0, freq_lift hR b f 1, freq_band, freq_band]

/-- The frequency factor, as a float, at (b, u, f). -/
theorem freq_keep (x1 x2 : (⟨S128x2, .i32⟩ : BufTy).Contents (Elt Ideal)) (b : Fin 128) (u : Fin 1) (f : Fin 80) :
    val_main_v30 (F := Ideal) x1 x2 (ix3 b u f)
      = keep (x2 (ix2 b 0)) (x1 (ix2 b 0)) (x2 (ix2 b 1)) (x1 (ix2 b 1)) (BitVec.ofNat 32 f.val) := by
  rw [val_main_v30_apply, val_main_v29_apply, val_main_v28_apply]
  have e : idx_main_v29 (ix3 b u f) = ix2 b f := funext fun a => match a with | ⟨0, _⟩ => rfl | ⟨1, _⟩ => rfl
  rw [e, freq_any]
  rfl

/-! ## Time -/

/-- The and of the two comparisons at (b, c, t): time position t in span c of batch element b. -/
theorem time_band (x3 x4 : (⟨S128x2, .i32⟩ : BufTy).Contents (Elt Ideal)) (b : Fin 128) (c : Fin 2) (t : Fin 4000) :
    val_main_v26 (F := Ideal) x3 x4 (ix3 b c t) = inBand (x4 (ix2 b c)) (x3 (ix2 b c)) (BitVec.ofNat 32 t.val) := by
  rw [val_main_v26_apply, val_main_v19_apply, val_main_v25_apply, val_main_v17_apply, val_main_v15_apply, val_main_v14_apply,
    val_main_v18_apply, val_main_v16_apply, val_main_v23_apply, val_main_v20_apply, val_main_v14_apply, val_main_v24_apply,
    val_main_v22_apply, val_main_v21_apply]
  have e : idx_main_v16 (idx_main_v18 (ix3 b c t)) = ix2 b c :=
    funext fun a => match a with | ⟨0, _⟩ => rfl | ⟨1, _⟩ => rfl
  have e' : idx_main_v22 (idx_main_v24 (ix3 b c t)) = ix2 b c :=
    funext fun a => match a with | ⟨0, _⟩ => rfl | ⟨1, _⟩ => rfl
  rw [e, e']
  rfl

/-- The source index over (b, t) with span coordinate c. -/
theorem time_lift (hR : S128x2x4000.Reduces [1] S128x4000) (b : Fin 128) (t : Fin 4000) (c : Fin 2) :
    hR.lift (ix2 b t) c = ix3 b c t :=
  funext fun a => Fin.ext (match a with | ⟨0, _⟩ => rfl | ⟨1, _⟩ => rfl | ⟨2, _⟩ => rfl)

/-- The or-reduction over the two spans at (b, t). -/
theorem time_any (x3 x4 : (⟨S128x2, .i32⟩ : BufTy).Contents (Elt Ideal)) (b : Fin 128) (t : Fin 4000) :
    val_main_v27 (F := Ideal) x3 x4 (ix2 b t)
      = inBand (x4 (ix2 b 0)) (x3 (ix2 b 0)) (BitVec.ofNat 32 t.val) ||| inBand (x4 (ix2 b 1)) (x3 (ix2 b 1)) (BitVec.ofNat 32 t.val) := by
  have hR : S128x2x4000.Reduces [1] S128x4000 := by decide
  unfold val_main_v27
  refine (Host.reduce_eq_fold_single IntOp.ori _ _ _ hR _ (ix2 b t)).trans ((fold_or_two _).trans ?_)
  show val_main_v26 (F := Ideal) x3 x4 (hR.lift (ix2 b t) (0 : Fin 2)) ||| val_main_v26 (F := Ideal) x3 x4 (hR.lift (ix2 b t) (1 : Fin 2)) = _
  rw [time_lift hR b t 0, time_lift hR b t 1, time_band, time_band]

/-- The time factor, as a float, at (b, t, u). -/
theorem time_keep (x3 x4 : (⟨S128x2, .i32⟩ : BufTy).Contents (Elt Ideal)) (b : Fin 128) (t : Fin 4000) (u : Fin 1) :
    val_main_v33 (F := Ideal) x3 x4 (ix3 b t u)
      = keep (x4 (ix2 b 0)) (x3 (ix2 b 0)) (x4 (ix2 b 1)) (x3 (ix2 b 1)) (BitVec.ofNat 32 t.val) := by
  rw [val_main_v33_apply, val_main_v32_apply, val_main_v31_apply]
  have e : idx_main_v32 (ix3 b t u) = ix2 b t := funext fun a => match a with | ⟨0, _⟩ => rfl | ⟨1, _⟩ => rfl
  rw [e, time_any]
  rfl

/-! ## The result -/

/-- The reference's result array is the masked array of its arguments. -/
theorem result_eq (x0 : (⟨S128x4000x80, .f32⟩ : BufTy).Contents (Elt Ideal)) (x1 x2 x3 x4 : (⟨S128x2, .i32⟩ : BufTy).Contents (Elt Ideal)) :
    val_main_v37 (F := Ideal) x0 x1 x2 x3 x4 = masked x0 x1 x2 x3 x4 := by
  funext j
  obtain ⟨b, t, f, rfl⟩ : ∃ (b : Fin 128) (t : Fin 4000) (f : Fin 80), j = ix3 b t f := ⟨j 0, j 1, j 2, eq_ix3 j⟩
  rw [val_main_v37_apply, val_main_v36_apply, val_main_v34_apply, val_main_v35_apply]
  have e : idx_main_v34 (ix3 b t f) = ix3 b (0 : Fin 1) f :=
    funext fun a => match a with | ⟨0, _⟩ => rfl | ⟨1, _⟩ => rfl | ⟨2, _⟩ => rfl
  have e' : idx_main_v35 (ix3 b t f) = ix3 b t (0 : Fin 1) :=
    funext fun a => match a with | ⟨0, _⟩ => rfl | ⟨1, _⟩ => rfl | ⟨2, _⟩ => rfl
  rw [e, e', freq_keep, time_keep]
  show x0 (ix3 b t f) * (keep _ _ _ _ _ * keep _ _ _ _ _) = x0 (ix3 b t f) * keep _ _ _ _ _ * keep _ _ _ _ _
  rw [mul_comm (keep (x2 _) _ _ _ _), mul_assoc]

end Cert.ReferenceIdeal.RefValue

end
-- ==== Proof.lean ====
/-
  The kernel zeroes, per batch element, two frequency bands and two time spans of x : f32[128, 4000, 80]; the reference does
  the same with whole-array operations.  At the ideal instance both end with the result array at

      masked (b, t, f) = x (b, t, f) · keep_time (b, t) · keep_freq (b, f)            (Proof/MaskSpec.lean)

  where a keep factor is the real 1 when the position lies in neither of the batch element's two bands [start, start + width)
  — integer words, compared signed, the sum wrapping — and 0 otherwise.

  * The reference (Proof/RefMask.lean): comparisons, an or-reduction over the two bands, a complement, a conversion to float,
    and x · (keep_freq · keep_time).  The kernel (Proof/KernelBlock.lean, Proof/KernelArray.lean): on each of 8 × 4 blocks
    of 16 batch elements and 1000 time positions, the same comparisons with the time position offset by the block's, or
    onto false, xor with true, a widening and a signed conversion, and (x · keep_time) · keep_freq; the 32 blocks tile the
    array.  The two spellings of "in neither band" agree on one-bit words, and the two products agree because
    multiplication of extended reals is commutative and associative — no finiteness of x is used, so the precondition is
    never opened.
  * The frames: the kernel's two programs run to the end with their arguments unchanged (the frame certificates
    Proof/FrameKernel.lean and Proof/FrameKernelIdeal.lean); the reference's frame is its run with the result dropped.
  * The idealization rewrote no operation, so `preserves` asks nothing.
-/
import proofs.«159147_j75239237092009_2_alg».proof.Defs
import proofs.«159147_j75239237092009_2_alg».proof.Proof.Gen.Kernel
import proofs.«159147_j75239237092009_2_alg».proof.Proof.Gen.KernelIdeal
import proofs.«159147_j75239237092009_2_alg».proof.Proof.Gen.ReferenceIdeal
import proofs.«159147_j75239237092009_2_alg».proof.Proof.Gen.Pre_finite_inputs
import proofs.«159147_j75239237092009_2_alg».proof.Proof.FrameKernel
import proofs.«159147_j75239237092009_2_alg».proof.Proof.FrameKernelIdeal
import proofs.«159147_j75239237092009_2_alg».proof.Proof.KernelArray
import proofs.«159147_j75239237092009_2_alg».proof.Proof.RefMask
import Idealize.ShloMosaic.Adequacy
import Idealize.ShloMosaic.Init

noncomputable section

namespace Cert.Proof

open Idealize.ShloMosaic Idealize.ShloMosaic.TcCoe Idealize.SL.Sem

/-- The kernel as printed runs to the end, its arguments unchanged. -/
theorem frame_kernel : Cert.frame_Kernel := fun m ρ _ => Cert.Kernel.GenP.frame m ρ

/-- So does its idealization. -/
theorem frame_kernel_ideal : Cert.frame_KernelIdeal := fun m ρ _ => Cert.KernelIdeal.GenP.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the result array at the masked array of the arguments:
    the kernel by its blocks (Proof/KernelArray.lean), the reference operation by operation (Proof/RefMask.lean). -/
theorem algebraic : Cert.algebraic_KernelIdeal_ReferenceIdeal := by
  intro m ρ m' ρ' _ hagree
  refine ⟨fun c => Cert.Mask.masked (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
